-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S50000, .f32⟩
  | .hbm, ⟨58, _⟩ => ⟨S600000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run, with its result named.

  The program is four stretches in order: host operations, the first layer's grid of ten row blocks, host operations
  again, the second layer's grid. After each stretch the TensorCore's buffers hold a known valuation: the host
  operations applied to the previous one, or, after a grid, the previous one with the grid's output array replaced
  by what its ten write-backs leave. Every weakly fair execution therefore ends with every buffer at the last of
  these valuations; read at the program's result buffer this names the result, and read at the arguments it says
  they are unchanged.
-/
import proofs.«119807_j39702677684337_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    valuation of the four stretches and the argument arrays as launched. -/
theorem run_result : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gen

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.BlockValue.lean ====
/-
  What one grid point computes, entry by entry.

  The kernel body loads a block of 5000 rows of the neighbour means and of the node features, the two 128 x 128
  weight matrices and the bias as a one-row matrix, and stores

      (means · wl  +  bias row, repeated down the rows)  +  features · wr,

  the first layer followed by the maximum with zero. Read at row `p`, channel `q` of the block, each matrix product
  into a zero accumulator is the sum over the 128 input channels of `left (p, k) · right (k, q)`, and the repeated
  row contributes the bias's entry `q`. The sums are over the extended reals, so their order plays no part.
-/
import proofs.«119807_j39702677684337_1_alg».proof.Proof.Gen.KernelIdeal.Skeleton
import proofs.«119807_j39702677684337_1_alg».proof.Proof.LibDense
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The block product's dimension numbers: rows by input channels times input channels by output channels. -/
abbrev blockDot : DotDims S5000x128 S128x128 S5000x128 := dot_S5000x128_S128x128_S5000x128_1_0_0_1_n_n

/-- The product reads its left operand in the output's row … -/
theorem dot_l0 (i : S5000x128.Idx) (k : blockDot.contr.Idx) : (blockDot.lhsIdx i k 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
/-- … at the contracted channel, … -/
theorem dot_l1 (i : S5000x128.Idx) (k : blockDot.contr.Idx) : (blockDot.lhsIdx i k 1).val = (k ⟨0, by decide⟩).val :=
  blockDot.lhsIdx_val_of_single rfl i k
/-- … and its right operand at the contracted channel … -/
theorem dot_r0 (i : S5000x128.Idx) (k : blockDot.contr.Idx) : (blockDot.rhsIdx i k 0).val = (k ⟨0, by decide⟩).val :=
  blockDot.rhsIdx_val_of_single rfl i k
/-- … in the output's channel. -/
theorem dot_r1 (i : S5000x128.Idx) (k : blockDot.contr.Idx) : (blockDot.rhsIdx i k 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- A block product into the zero accumulator, at row `p` and channel `q`: the sum over the input channels. -/
theorem blockProduct_apply (a : FVec Ideal S5000x128 .f32) (w : FVec Ideal S128x128 .f32) (p : Fin 5000) (q : Fin 128) :
    matmul blockDot none a w (constant S5000x128 .f32 0x00000000#32) (ix2 p q) = ∑ k : Fin 128, a (ix2 p k) * w (ix2 k q) :=
  matmul_zero_plain_apply blockDot none rfl rfl dot_l0 dot_l1 dot_r0 dot_r1 a w p q

/-- The first layer's stored value at row `p`, channel `q` of the block. -/
theorem firstLayer_apply (x0 x1 : Vec Ideal S5000x128 .f32) (x2 x4 : Vec Ideal S128x128 .f32) (x3 : Vec Ideal S1x128 .f32)
    (p : Fin 5000) (q : Fin 128) :
    k0_pay1 (F := Ideal) x0 x2 x3 x1 x4 (ix2 p q)
      = max ((∑ k : Fin 128, x0 (ix2 p k) * x2 (ix2 k q)) + x3 (ix2 (0 : Fin 1) q) + ∑ k : Fin 128, x1 (ix2 p k) * x4 (ix2 k q))
          (Ideal.ofBits .f32 0x00000000#32) := by
  unfold k0_pay1
  simp only [shapeCast_self]
  rw [maximumf_apply, addf_apply, addf_apply, blockProduct_apply, blockProduct_apply, broadcastTo_1b_ab_apply]
  rfl

/-- The second layer's stored value at row `p`, channel `q` of the block: the same without the rectifier. -/
theorem secondLayer_apply (x0 x1 : Vec Ideal S5000x128 .f32) (x2 x4 : Vec Ideal S128x128 .f32) (x3 : Vec Ideal S1x128 .f32)
    (p : Fin 5000) (q : Fin 128) :
    k1_pay1 (F := Ideal) x0 x2 x3 x1 x4 (ix2 p q)
      = (∑ k : Fin 128, x0 (ix2 p k) * x2 (ix2 k q)) + x3 (ix2 (0 : Fin 1) q) + ∑ k : Fin 128, x1 (ix2 p k) * x4 (ix2 k q) := by
  unfold k1_pay1
  simp only [shapeCast_self]
  rw [addf_apply, addf_apply, blockProduct_apply, blockProduct_apply, broadcastTo_1b_ab_apply]

end Cert.KernelIdeal.BlockValue

end
-- ==== Proof.SageSpec.lean ====
/-
  One SAGE layer's dense combine step, as a function of whole arrays.

  A layer takes the aggregated neighbour means `mean` and the node features `x`, both `[50000, 128]`, two weight
  matrices already laid out as `[input channel, output channel]` (`wl`, `wr`: the transposes of the layer's
  parameters) and a bias vector `b` of 128 entries. Node `e`'s output channel `q` is

      (Σ_k mean (e, k) · wl (k, q))  +  b q  +  Σ_k x (e, k) · wr (k, q),

  the two sums over the 128 input channels, added in this order; the first layer then takes the maximum with zero.
  An output row depends on the same row of `mean` and `x` only, which is why the rows can be computed five thousand
  at a time. Everything here is over the extended reals; the zero of the rectifier is kept as the float word
  `0x00000000` read at the exact instance, the same word on both sides, never evaluated.
-/
import Idealize.ShloMosaic.PureOps.Ideal
import Idealize.ShloMosaic.Lib.ValueIdx

noncomputable section

open scoped BigOperators

namespace Cert.Sage

open Idealize.ShloMosaic Idealize.ShloMosaic.ValueIdx

/-- Node features: 50000 nodes, 128 channels. -/
abbrev Nodes : Shape := ⟨2, ![50000, 128]⟩
/-- A weight matrix, input channel by output channel. -/
abbrev Weights : Shape := ⟨2, ![128, 128]⟩
/-- A bias vector. -/
abbrev Bias : Shape := ⟨1, ![128]⟩

/-- Entry `(e, q)` of a layer's combine step. -/
def combineAt (mean x : FVec Ideal Nodes .f32) (wl : FVec Ideal Weights .f32) (b : FVec Ideal Bias .f32)
    (wr : FVec Ideal Weights .f32) (e : Fin 50000) (q : Fin 128) : EReal :=
  (∑ k : Fin 128, mean (ix2 e k) * wl (ix2 k q)) + b (ix1 q) + ∑ k : Fin 128, x (ix2 e k) * wr (ix2 k q)

/-- The combine step as a whole array (the second layer). -/
def combine (mean x : FVec Ideal Nodes .f32) (wl : FVec Ideal Weights .f32) (b : FVec Ideal Bias .f32)
    (wr : FVec Ideal Weights .f32) : FVec Ideal Nodes .f32 :=
  fun i => combineAt mean x wl b wr (i 0) (i 1)

/-- The combine step followed by the rectifier (the first layer). -/
def combineRelu (mean x : FVec Ideal Nodes .f32) (wl : FVec Ideal Weights .f32) (b : FVec Ideal Bias .f32)
    (wr : FVec Ideal Weights .f32) : FVec Ideal Nodes .f32 :=
  fun i => max (combineAt mean x wl b wr (i 0) (i 1)) (Ideal.ofBits .f32 0x00000000#32)

theorem combine_apply (mean x : FVec Ideal Nodes .f32) (wl : FVec Ideal Weights .f32) (b : FVec Ideal Bias .f32)
    (wr : FVec Ideal Weights .f32) (e : Fin 50000) (q : Fin 128) :
    combine mean x wl b wr (ix2 e q) = combineAt mean x wl b wr e q := rfl

theorem combineRelu_apply (mean x : FVec Ideal Nodes .f32) (wl : FVec Ideal Weights .f32) (b : FVec Ideal Bias .f32)
    (wr : FVec Ideal Weights .f32) (e : Fin 50000) (q : Fin 128) :
    combineRelu mean x wl b wr (ix2 e q) = max (combineAt mean x wl b wr e q) (Ideal.ofBits .f32 0x00000000#32) := rfl

end Cert.Sage

end
-- ==== Proof.RegionValue.lean ====
/-
  From row blocks to whole arrays, for each of the two layers.

  A layer's grid has ten points; point `t` is handed rows `5000 t` to `5000 t + 4999` of the neighbour means and of
  the features, and the whole of the two weight matrices and of the bias row, and writes back the same rows of the
  output. Since an output row of the layer depends only on the same row of the means and the features, what point
  `t` writes back is exactly block `t` of the layer's whole-array function; the ten blocks tile the 50000 rows, so
  after the grid the output array IS that function of the arrays the grid was entered with. Both layers are stated
  at an arbitrary valuation `V` of the buffers on entry, which the run later instantiates.
-/
import proofs.«119807_j39702677684337_1_alg».proof.Proof.Gen.KernelIdeal.Frame
import proofs.«119807_j39702677684337_1_alg».proof.Proof.BlockValue
import proofs.«119807_j39702677684337_1_alg».proof.Proof.SageSpec
import Idealize.ShloMosaic.Lib.Pipeline.Value

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A whole-buffer access starts at offset zero on both axes. -/
theorem zeroOffsets : (![0, 0] : Fin 2 → Nat) = fun _ => 0 := funext fun a => by fin_cases a <;> rfl

/-- The bias handed to the kernel as a one-row matrix, read back as a vector. -/
def rowVector (r : FVec Ideal S1x128 .f32) : FVec Ideal Cert.Sage.Bias .f32 := fun j => r (ix2 (0 : Fin 1) (j 0))

/-! ## The first layer: combine and rectify -/

/-- The printed index maps over the first layer's ten grid points: point `t` takes row block `t` of the means, of
    the features and of the output, and block `(0, 0)` (the whole array) of the weights and of the bias row. -/
theorem blockIndices0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` of the first layer writes back is rows `5000 t … 5000 t + 4999` of the layer's whole-array
    function of the arrays the grid is entered with: row `p` of the block reads row `5000 t + p` of the means and of
    the features, and every point reads the same weights and bias. -/
theorem written0 (c : Dev nD) (t : Fin cfg0.N) :
    (dat0 V c).flushed 5 t = ((cfg0.win 5).blk t).view.read (Elt Ideal)
      (Cert.Sage.combineRelu (V c main_v22) (V c main_arg0) (V c main_v23) (rowVector (V c main_v25)) (V c main_v24)) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S128x128) zeroOffsets,
    View.ld_unit_zero (S := S1x128) zeroOffsets]
  obtain ⟨f50, f51, f00, f01, f10, f11, f20, f21, f30, f31, f40, f41⟩ := blockIndices0 t
  have ht : t.val < 10 := t.isLt
  funext j
  obtain ⟨p, q, rfl⟩ : ∃ (p : Fin 5000) (q : Fin 128), j = ix2 p q := ⟨j 0, j 1, eq_ix2 j⟩
  have hp : p.val < 5000 := p.isLt
  show k0_pay1 (F := Ideal) (iblk0 V c 0 t) (iblk0 V c 2 t) (iblk0 V c 3 t) (iblk0 V c 1 t) (iblk0 V c 4 t) (ix2 p q)
    = Cert.Sage.combineRelu (V c main_v22) (V c main_arg0) (V c main_v23) (rowVector (V c main_v25)) (V c main_v24)
        (((cfg0.win 5).blk t).view.emb (ix2 p q))
  refine (BlockValue.firstLayer_apply (iblk0 V c 0 t) (iblk0 V c 1 t) (iblk0 V c 2 t) (iblk0 V c 4 t) (iblk0 V c 3 t) p q).trans ?_
  have hrow : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; rw [f50]; omega
    | ⟨1, _⟩ => show win0_5.index t (1 : Fin 2) * 128 + 1 * q.val = q.val; rw [f51]; omega
  rw [hrow, Cert.Sage.combineRelu_apply]
  unfold Cert.Sage.combineAt rowVector
  have e0 : ∀ k : Fin 128, iblk0 V c 0 t (ix2 p k) = V c main_v22 (ix2 (⟨t.val * 5000 + p.val, by omega⟩ : Fin 50000) k) := fun k => by
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = t.val * 5000 + p.val; rw [f00]; omega
    | ⟨1, _⟩ => show win0_0.index t (1 : Fin 2) * 128 + 1 * k.val = k.val; rw [f01]; omega
  have e1 : ∀ k : Fin 128, iblk0 V c 1 t (ix2 p k) = V c main_arg0 (ix2 (⟨t.val * 5000 + p.val, by omega⟩ : Fin 50000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; rw [f10]; omega
    | ⟨1, _⟩ => show win0_1.index t (1 : Fin 2) * 128 + 1 * k.val = k.val; rw [f11]; omega
  have e2 : ∀ k : Fin 128, iblk0 V c 2 t (ix2 k q) = V c main_v23 (ix2 k q) := fun k => by
    show V c main_v23 (((cfg0.win 2).blk t).view.emb (ix2 k q)) = _
    refine congrArg (V c main_v23) (funext fun a => Fin.ext ?_)
    match a with
    | ⟨0, _⟩ => show win0_2.index t (0 : Fin 2) * 128 + 1 * k.val = k.val; rw [f20]; omega
    | ⟨1, _⟩ => show win0_2.index t (1 : Fin 2) * 128 + 1 * q.val = q.val; rw [f21]; omega
  have e4 : ∀ k : Fin 128, iblk0 V c 4 t (ix2 k q) = V c main_v24 (ix2 k q) := fun k => by
    show V c main_v24 (((cfg0.win 4).blk t).view.emb (ix2 k q)) = _
    refine congrArg (V c main_v24) (funext fun a => Fin.ext ?_)
    match a with
    | ⟨0, _⟩ => show win0_4.index t (0 : Fin 2) * 128 + 1 * k.val = k.val; rw [f40]; omega
    | ⟨1, _⟩ => show win0_4.index t (1 : Fin 2) * 128 + 1 * q.val = q.val; rw [f41]; omega
  have e3 : iblk0 V c 3 t (ix2 (0 : Fin 1) q) = V c main_v25 (ix2 (0 : Fin 1) q) := by
    show V c main_v25 (((cfg0.win 3).blk t).view.emb (ix2 (0 : Fin 1) q)) = _
    refine congrArg (V c main_v25) (funext fun a => Fin.ext ?_)
    match a with
    | ⟨0, _⟩ => show win0_3.index t (0 : Fin 2) * 1 + 1 * 0 = 0; rw [f30]
    | ⟨1, _⟩ => show win0_3.index t (1 : Fin 2) * 128 + 1 * q.val = q.val; rw [f31]; omega
  simp only [e0, e1, e2, e3, e4]

/-- An index of the output array lies in point `t`'s block exactly when each coordinate lies in the block's range. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- The ten row blocks tile the output: row `r` lies in the block of point `r / 5000`, which writes back. -/
theorem covered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨f50, f51, -⟩ := blockIndices0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    rw [f50, ht]; omega
  | ⟨1, _⟩ =>
    show win0_5.index t (1 : Fin 2) * 128 ≤ (i 1).val ∧ (i 1).val < win0_5.index t (1 : Fin 2) * 128 + 128
    rw [f51]; omega

/-- After its ten points the first layer's output array holds the layer's whole-array function of the arrays the
    grid was entered with. -/
theorem layerArray0 (c : Dev nD) :
    (dat0 V c).arrAt 5 cfg0.N
      = Cert.Sage.combineRelu (V c main_v22) (V c main_arg0) (V c main_v23) (rowVector (V c main_v25)) (V c main_v24) :=
  (dat0 V c).arrAt_eq_of_cover 5 _ (fun t _ => written0 V c t) covered0

/-! ## The second layer: combine -/

/-- The printed index maps over the second layer's ten grid points: point `t` takes row block `t` of the means, of
    the features and of the output, and block `(0, 0)` (the whole array) of the weights and of the bias row. -/
theorem blockIndices1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` of the second layer writes back is rows `5000 t … 5000 t + 4999` of the layer's whole-array
    function of the arrays the grid is entered with: row `p` of the block reads row `5000 t + p` of the means and of
    the features, and every point reads the same weights and bias. -/
theorem written1 (c : Dev nD) (t : Fin cfg1.N) :
    (dat1 V c).flushed 5 t = ((cfg1.win 5).blk t).view.read (Elt Ideal)
      (Cert.Sage.combine (V c main_v45) (V c main_v26) (V c main_v46) (rowVector (V c main_v48)) (V c main_v47)) := by
  show (cfg1.win 5).cut (grid1.coords t) ((dat1 V c).after 5 t) = _
  rw [after1_5]
  unfold out1_5
  rw [View.canon_unit_zero zeroOffsets]
  simp only [View.ld_unit_zero (S := S5000x128) zeroOffsets, View.ld_unit_zero (S := S128x128) zeroOffsets,
    View.ld_unit_zero (S := S1x128) zeroOffsets]
  obtain ⟨f50, f51, f00, f01, f10, f11, f20, f21, f30, f31, f40, f41⟩ := blockIndices1 t
  have ht : t.val < 10 := t.isLt
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 2 t) (iblk1 V c 3 t) (iblk1 V c 1 t) (iblk1 V c 4 t) (ix2 p q)
    = Cert.Sage.combine (V c main_v45) (V c main_v26) (V c main_v46) (rowVector (V c main_v48)) (V c main_v47)
        (((cfg1.win 5).blk t).view.emb (ix2 p q))
  refine (BlockValue.secondLayer_apply (iblk1 V c 0 t) (iblk1 V c 1 t) (iblk1 V c 2 t) (iblk1 V c 4 t) (iblk1 V c 3 t) p q).trans ?_
  have hrow : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; rw [f50]; omega
    | ⟨1, _⟩ => show win1_5.index t (1 : Fin 2) * 128 + 1 * q.val = q.val; rw [f51]; omega
  rw [hrow, Cert.Sage.combine_apply]
  unfold Cert.Sage.combineAt rowVector
  have e0 : ∀ k : Fin 128, iblk1 V c 0 t (ix2 p k) = V c main_v45 (ix2 (⟨t.val * 5000 + p.val, by omega⟩ : Fin 50000) k) := fun k => by
    show V c main_v45 (((cfg1.win 0).blk t).view.emb (ix2 p k)) = _
    refine congrArg (V c main_v45) (funext fun a => Fin.ext ?_)
    match a with
    | ⟨0, _⟩ => show win1_0.index t (0 : Fin 2) * 5000 + 1 * p.val = t.val * 5000 + p.val; rw [f00]; omega
    | ⟨1, _⟩ => show win1_0.index t (1 : Fin 2) * 128 + 1 * k.val = k.val; rw [f01]; omega
  have e1 : ∀ k : Fin 128, iblk1 V c 1 t (ix2 p k) = V c main_v26 (ix2 (⟨t.val * 5000 + p.val, by omega⟩ : Fin 50000) k) := fun k => by
    show V c main_v26 (((cfg1.win 1).blk t).view.emb (ix2 p k)) = _
    refine congrArg (V c main_v26) (funext fun a => Fin.ext ?_)
    match a with
    | ⟨0, _⟩ => show win1_1.index t (0 : Fin 2) * 5000 + 1 * p.val = t.val * 5000 + p.val; rw [f10]; omega
    | ⟨1, _⟩ => show win1_1.index t (1 : Fin 2) * 128 + 1 * k.val = k.val; rw [f11]; omega
  have e2 : ∀ k : Fin 128, iblk1 V c 2 t (ix2 k q) = V c main_v46 (ix2 k q) := fun k => by
    show V c main_v46 (((cfg1.win 2).blk t).view.emb (ix2 k q)) = _
    refine congrArg (V c main_v46) (funext fun a => Fin.ext ?_)
    match a with
    | ⟨0, _⟩ => show win1_2.index t (0 : Fin 2) * 128 + 1 * k.val = k.val; rw [f20]; omega
    | ⟨1, _⟩ => show win1_2.index t (1 : Fin 2) * 128 + 1 * q.val = q.val; rw [f21]; omega
  have e4 : ∀ k : Fin 128, iblk1 V c 4 t (ix2 k q) = V c main_v47 (ix2 k q) := fun k => by
    show V c main_v47 (((cfg1.win 4).blk t).view.emb (ix2 k q)) = _
    refine congrArg (V c main_v47) (funext fun a => Fin.ext ?_)
    match a with
    | ⟨0, _⟩ => show win1_4.index t (0 : Fin 2) * 128 + 1 * k.val = k.val; rw [f40]; omega
    | ⟨1, _⟩ => show win1_4.index t (1 : Fin 2) * 128 + 1 * q.val = q.val; rw [f41]; omega
  have e3 : iblk1 V c 3 t (ix2 (0 : Fin 1) q) = V c main_v48 (ix2 (0 : Fin 1) q) := by
    show V c main_v48 (((cfg1.win 3).blk t).view.emb (ix2 (0 : Fin 1) q)) = _
    refine congrArg (V c main_v48) (funext fun a => Fin.ext ?_)
    match a with
    | ⟨0, _⟩ => show win1_3.index t (0 : Fin 2) * 1 + 1 * 0 = 0; rw [f30]
    | ⟨1, _⟩ => show win1_3.index t (1 : Fin 2) * 128 + 1 * q.val = q.val; rw [f31]; omega
  simp only [e0, e1, e2, e3, e4]

/-- An index of the output array lies in point `t`'s block exactly when each coordinate lies in the block's range. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- The ten row blocks tile the output: row `r` lies in the block of point `r / 5000`, which writes back. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨f50, f51, -⟩ := blockIndices1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    rw [f50, ht]; omega
  | ⟨1, _⟩ =>
    show win1_5.index t (1 : Fin 2) * 128 ≤ (i 1).val ∧ (i 1).val < win1_5.index t (1 : Fin 2) * 128 + 128
    rw [f51]; omega

/-- After its ten points the second layer's output array holds the layer's whole-array function of the arrays the
    grid was entered with. -/
theorem layerArray1 (c : Dev nD) :
    (dat1 V c).arrAt 5 cfg1.N
      = Cert.Sage.combine (V c main_v45) (V c main_v26) (V c main_v46) (rowVector (V c main_v48)) (V c main_v47) :=
  (dat1 V c).arrAt_eq_of_cover 5 _ (fun t _ => written1 V c t) covered1

end Cert.KernelIdeal.RegionValue

end
-- ==== Proof.RefValue.lean ====
/-
  The reference, read as two layers over one aggregation.

  The reference computes, for node features `x` and an edge list `e`: the mean of each node's in-neighbours' rows
  (a gather of source rows, a scatter-add into target rows, divided by the in-degree or by one where it is zero);
  the first layer's combine of those means with `x`, rectified; the same aggregation of the rectified rows; and the
  second layer's combine. The aggregation is never opened here: it is the stage `val_main_v22`, a function of a
  feature array and the edge list, and the second aggregation is that same stage applied to the first layer's
  output. Each combine is read entry by entry: a host product against a transposed weight matrix is the sum over the
  input channels, the bias broadcast down the rows contributes its entry at the output channel, and the two terms are
  added in the order the layer's definition has.
-/
import proofs.«119807_j39702677684337_1_alg».proof.Proof.Gen.ReferenceIdeal.Read
import proofs.«119807_j39702677684337_1_alg».proof.Proof.SageSpec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ## Where each product and each broadcast reads its operands -/

theorem lidx24 (e : Fin 50000) (q k : Fin 128) : lidx_main_v24 (ix2 e q) k = ix2 e k :=
  funext fun a => Fin.ext (by match a with | ⟨0, _⟩ => rfl | ⟨1, _⟩ => rfl)
theorem ridx24 (e : Fin 50000) (q k : Fin 128) : ridx_main_v24 (ix2 e q) k = ix2 k q :=
  funext fun a => Fin.ext (by match a with | ⟨0, _⟩ => rfl | ⟨1, _⟩ => rfl)
theorem lidx29 (e : Fin 50000) (q k : Fin 128) : lidx_main_v29 (ix2 e q) k = ix2 e k :=
  funext fun a => Fin.ext (by match a with | ⟨0, _⟩ => rfl | ⟨1, _⟩ => rfl)
theorem ridx29 (e : Fin 50000) (q k : Fin 128) : ridx_main_v29 (ix2 e q) k = ix2 k q :=
  funext fun a => Fin.ext (by match a with | ⟨0, _⟩ => rfl | ⟨1, _⟩ => rfl)
theorem lidx52 (e : Fin 50000) (q k : Fin 128) : lidx_main_v52 (ix2 e q) k = ix2 e k :=
  funext fun a => Fin.ext (by match a with | ⟨0, _⟩ => rfl | ⟨1, _⟩ => rfl)
theorem ridx52 (e : Fin 50000) (q k : Fin 128) : ridx_main_v52 (ix2 e q) k = ix2 k q :=
  funext fun a => Fin.ext (by match a with | ⟨0, _⟩ => rfl | ⟨1, _⟩ => rfl)
theorem lidx57 (e : Fin 50000) (q k : Fin 128) : lidx_main_v57 (ix2 e q) k = ix2 e k :=
  funext fun a => Fin.ext (by match a with | ⟨0, _⟩ => rfl | ⟨1, _⟩ => rfl)
theorem ridx57 (e : Fin 50000) (q k : Fin 128) : ridx_main_v57 (ix2 e q) k = ix2 k q :=
  funext fun a => Fin.ext (by match a with | ⟨0, _⟩ => rfl | ⟨1, _⟩ => rfl)

theorem bias1 (e : Fin 50000) (q : Fin 128) : idx_main_v25 (idx_main_v26 (ix2 e q)) = ix1 q :=
  funext fun a => Fin.ext (by match a with | ⟨0, _⟩ => rfl)
theorem bias2 (e : Fin 50000) (q : Fin 128) : idx_main_v53 (idx_main_v54 (ix2 e q)) = ix1 q :=
  funext fun a => Fin.ext (by match a with | ⟨0, _⟩ => rfl)

/-! ## The two layers -/

/-- The first layer's output: the rectified combine of the aggregated means of `x0` with `x0`. -/
theorem firstLayer_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = Cert.Sage.combineRelu (val_main_v22 (F := Ideal) x0 x1) x0 (val_main_v23 (F := Ideal) x2) x3 (val_main_v28 (F := Ideal) x4) := by
  funext i
  obtain ⟨e, q, rfl⟩ : ∃ (e : Fin 50000) (q : Fin 128), i = ix2 e q := ⟨i 0, i 1, eq_ix2 i⟩
  rw [val_main_v31_apply, val_main_v30_apply, val_main_v27_apply, val_main_v24_apply, val_main_v26_apply, val_main_v25_apply,
    val_main_v29_apply, val_main_call0_v0_apply, val_main_call0_cst_apply, Cert.Sage.combineRelu_apply]
  simp only [lidx24, ridx24, lidx29, ridx29, bias1]
  rfl

/-- The second aggregation is the first one's stage applied to the first layer's output. -/
theorem secondMeans_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v50 (F := Ideal) x0 x1 x2 x3 x4 = val_main_v22 (F := Ideal) (val_main_v31 (F := Ideal) x0 x1 x2 x3 x4) x1 := rfl

/-- The second layer's output: the combine of the second aggregation with the first layer's output. -/
theorem secondLayer_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7
      = Cert.Sage.combine (val_main_v50 (F := Ideal) x0 x1 x2 x3 x4) (val_main_v31 (F := Ideal) x0 x1 x2 x3 x4)
          (val_main_v51 (F := Ideal) x5) x6 (val_main_v56 (F := Ideal) x7) := by
  funext i
  obtain ⟨e, q, rfl⟩ : ∃ (e : Fin 50000) (q : Fin 128), i = ix2 e q := ⟨i 0, i 1, eq_ix2 i⟩
  rw [val_main_v58_apply, val_main_v55_apply, val_main_v52_apply, val_main_v54_apply, val_main_v53_apply, val_main_v57_apply,
    Cert.Sage.combine_apply]
  simp only [lidx52, ridx52, lidx57, ridx57, bias2]
  rfl

/-! ## The whole reference -/

/-- The first layer's output as a function of the arguments. -/
def hidden (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S50000x128, .f32⟩ : BufTy).Contents (Elt Ideal) :=
  Cert.Sage.combineRelu (val_main_v22 (F := Ideal) x0 x1) x0 (val_main_v23 (F := Ideal) x2) x3 (val_main_v28 (F := Ideal) x4)

/-- The network's output as a function of the arguments: aggregate, combine and rectify, aggregate, combine. -/
def output (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) : (⟨S50000x128, .f32⟩ : BufTy).Contents (Elt Ideal) :=
  Cert.Sage.combine (val_main_v22 (F := Ideal) (hidden x0 x1 x2 x3 x4) x1) (hidden x0 x1 x2 x3 x4)
    (val_main_v51 (F := Ideal) x5) x6 (val_main_v56 (F := Ideal) x7)

/-- The reference's result stage is that function. -/
theorem stage_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v58 (F := Ideal) x0 x1 x2 x3 x4 x5 x6 x7 = output x0 x1 x2 x3 x4 x5 x6 x7 := by
  rw [secondLayer_eq, secondMeans_eq, firstLayer_eq]
  rfl

end Cert.ReferenceIdeal.RefValue

end
-- ==== Proof.KernelValue.lean ====
/-
  The kernel program's result as a function of its arguments.

  The run ends with the result buffer at the last of four valuations. Unwinding them from the end: the second
  grid's output array is the second layer's combine of the arrays that grid was entered with; those are the host
  operations between the grids applied to what the first grid left — the aggregation of the first grid's output
  over the edge list, that output itself, two transposed weight matrices and a bias reshaped to a row; the first
  grid's output array is the first layer's rectified combine of the arrays IT was entered with, which the host
  operations before it computed from the arguments in the same way. The aggregation is the reference's own stage,
  applied by the same host operations, and is never opened. Composed, the result is the network's output function of
  the eight arguments.
-/
import proofs.«119807_j39702677684337_1_alg».proof.Proof.KernelRun
import proofs.«119807_j39702677684337_1_alg».proof.Proof.RegionValue
import proofs.«119807_j39702677684337_1_alg».proof.Proof.RefValue
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-! ## What the first grid is entered with -/

/-- The neighbour means the first grid reads are the aggregation stage of the features over the edge list. -/
theorem entry1_means (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  dsimp only [hostOps0]
  after_results_simp
  rfl

/-- The features it reads are the argument. -/
theorem entry1_features (c : Dev nD) :
    V1 m ρ c main_arg0 = (m ((c : Thread nD τ).loc main_arg0)) := by
  show StableHlo.after hostOps0 (W0 m ρ c) (Proc.devRef .tc main_arg0) = _
  dsimp only [hostOps0]
  after_results_simp

/-- Its first weight matrix is the transposed parameter. -/
theorem entry1_wl (c : Dev nD) :
    V1 m ρ c main_v23 = Cert.ReferenceIdeal.Read.val_main_v23 (F := Ideal) (m ((c : Thread nD τ).loc main_arg2)) := by
  show StableHlo.after hostOps0 (W0 m ρ c) (Proc.devRef .tc main_v23) = _
  dsimp only [hostOps0]
  after_results_simp
  rfl

/-- Its bias row is the bias vector reshaped. -/
theorem entry1_bias (c : Dev nD) :
    V1 m ρ c main_v25 = shapeCast S1x128 (m ((c : Thread nD τ).loc main_arg3)) shapeCasts_S128_S1x128 := by
  show StableHlo.after hostOps0 (W0 m ρ c) (Proc.devRef .tc main_v25) = _
  dsimp only [hostOps0]
  after_results_simp
  rfl

/-- Its second weight matrix is the transposed parameter. -/
theorem entry1_wr (c : Dev nD) :
    V1 m ρ c main_v24 = Cert.ReferenceIdeal.Read.val_main_v28 (F := Ideal) (m ((c : Thread nD τ).loc main_arg4)) := by
  show StableHlo.after hostOps0 (W0 m ρ c) (Proc.devRef .tc main_v24) = _
  dsimp only [hostOps0]
  after_results_simp
  rfl

/-- A vector handed over as a one-row matrix and read back as a vector is the vector. -/
theorem rowVector_reshape (b : FVec Ideal S128 .f32) :
    RegionValue.rowVector (shapeCast S1x128 b shapeCasts_S128_S1x128) = b := by
  funext j
  obtain ⟨q, rfl⟩ : ∃ q : Fin 128, j = ix1 q := ⟨j 0, eq_ix1 j⟩
  exact shapeCast_a_1a_apply b shapeCasts_S128_S1x128 (0 : Fin 1) q

/-- After the first grid its output array holds the first layer's output function of the arguments. -/
theorem hidden_eq (c : Dev nD) :
    W2 m ρ c (Proc.devRef .tc main_v26)
      = Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [RegionValue.layerArray0 (V1 m ρ) c, entry1_means, entry1_features, entry1_wl, entry1_bias, entry1_wr, rowVector_reshape]
  rfl

/-! ## What the second grid is entered with -/

/-- The edge list's source row, as the host operations before the first grid left it. -/
theorem entry_sources (c : Dev nD) :
    W1 m ρ c (Proc.devRef .tc main_v1) = shapeCast S600000 (extractStridedSlice S1x600000 ![0, 0] (m ((c : Thread nD τ).loc main_arg1)) slices_S2x600000_S1x600000_0_0) shapeCasts_S1x600000_S600000 := by
  show StableHlo.after hostOps0 (W0 m ρ c) (Proc.devRef .tc main_v1) = _
  dsimp only [hostOps0]
  after_results_simp
  rfl

/-- The edge list's target row, likewise. -/
theorem entry_targets (c : Dev nD) :
    W1 m ρ c (Proc.devRef .tc main_v3) = shapeCast S600000 (extractStridedSlice S1x600000 ![1, 0] (m ((c : Thread nD τ).loc main_arg1)) slices_S2x600000_S1x600000_1_0) shapeCasts_S1x600000_S600000 := by
  show StableHlo.after hostOps0 (W0 m ρ c) (Proc.devRef .tc main_v3) = _
  dsimp only [hostOps0]
  after_results_simp
  rfl

/-- No host operation before the first grid writes the second layer's first parameter. -/
theorem kept_wl2 (c : Dev nD) :
    W1 m ρ c (Proc.devRef .tc main_arg5) = (m ((c : Thread nD τ).loc main_arg5)) := by
  show StableHlo.after hostOps0 (W0 m ρ c) (Proc.devRef .tc main_arg5) = _
  dsimp only [hostOps0]
  after_results_simp

/-- Nor its bias. -/
theorem kept_bias2 (c : Dev nD) :
    W1 m ρ c (Proc.devRef .tc main_arg6) = (m ((c : Thread nD τ).loc main_arg6)) := by
  show StableHlo.after hostOps0 (W0 m ρ c) (Proc.devRef .tc main_arg6) = _
  dsimp only [hostOps0]
  after_results_simp

/-- Nor its second parameter. -/
theorem kept_wr2 (c : Dev nD) :
    W1 m ρ c (Proc.devRef .tc main_arg7) = (m ((c : Thread nD τ).loc main_arg7)) := by
  show StableHlo.after hostOps0 (W0 m ρ c) (Proc.devRef .tc main_arg7) = _
  dsimp only [hostOps0]
  after_results_simp

/-- The neighbour means the second grid reads are the aggregation stage of the first grid's output over the edge
    list: the host operations between the grids are those before the first, applied to that output. -/
theorem entry2_means (c : Dev nD) :
    V3 m ρ c main_v45
      = Cert.ReferenceIdeal.Read.val_main_v22 (F := Ideal) (W2 m ρ c (Proc.devRef .tc main_v26)) (m ((c : Thread nD τ).loc main_arg1)) := by
  show StableHlo.after hostOps1 (W2 m ρ c) (Proc.devRef .tc main_v45) = _
  dsimp only [hostOps1]
  after_results_simp
  rw [W2_of_ne m ρ c main_v1 (by decide), W2_of_ne m ρ c main_v3 (by decide), entry_sources, entry_targets]
  rfl

/-- The features it reads are the first grid's output. -/
theorem entry2_features (c : Dev nD) : V3 m ρ c main_v26 = W2 m ρ c (Proc.devRef .tc main_v26) := by
  show StableHlo.after hostOps1 (W2 m ρ c) (Proc.devRef .tc main_v26) = _
  dsimp only [hostOps1]
  after_results_simp

/-- Its first weight matrix is the transposed parameter. -/
theorem entry2_wl (c : Dev nD) : V3 m ρ c main_v46 = Cert.ReferenceIdeal.Read.val_main_v51 (F := Ideal) (m ((c : Thread nD τ).loc main_arg5)) := by
  show StableHlo.after hostOps1 (W2 m ρ c) (Proc.devRef .tc main_v46) = _
  dsimp only [hostOps1]
  after_results_simp
  rw [W2_of_ne m ρ c main_arg5 (by decide), kept_wl2]
  rfl

/-- Its bias row is the bias vector reshaped. -/
theorem entry2_bias (c : Dev nD) : V3 m ρ c main_v48 = shapeCast S1x128 (m ((c : Thread nD τ).loc main_arg6)) shapeCasts_S128_S1x128 := by
  show StableHlo.after hostOps1 (W2 m ρ c) (Proc.devRef .tc main_v48) = _
  dsimp only [hostOps1]
  after_results_simp
  rw [W2_of_ne m ρ c main_arg6 (by decide), kept_bias2]
  rfl

/-- Its second weight matrix is the transposed parameter. -/
theorem entry2_wr (c : Dev nD) : V3 m ρ c main_v47 = Cert.ReferenceIdeal.Read.val_main_v56 (F := Ideal) (m ((c : Thread nD τ).loc main_arg7)) := by
  show StableHlo.after hostOps1 (W2 m ρ c) (Proc.devRef .tc main_v47) = _
  dsimp only [hostOps1]
  after_results_simp
  rw [W2_of_ne m ρ c main_arg7 (by decide), kept_wr2]
  rfl

/-! ## The result -/

/-- The result buffer ends at the network's output function of the eight arguments. -/
theorem result_eq (c : Dev nD) :
    W4 m ρ c (Proc.devRef .tc main_v49)
      = Cert.ReferenceIdeal.RefValue.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [RegionValue.layerArray1 (V3 m ρ) c, entry2_means, entry2_features, entry2_wl, entry2_bias, entry2_wr, rowVector_reshape, hidden_eq]
  rfl

end Cert.KernelIdeal.KernelValue

end
-- ==== Proof.lean ====
/-
  Two layers of neighbour-mean graph convolution: a tiled kernel against the plain array program.

  Both programs take node features `x` (50000 nodes by 128 channels), an edge list and, per layer, two 128 x 128
  parameters and a bias. A layer first averages, for every node, the rows of its in-neighbours (a gather of source
  rows scatter-added into target rows, divided by the in-degree, or by one for a node without in-neighbours), then
  outputs  means · Wl^T + b + x · Wr^T ; the first layer's output is rectified and fed to the second.

  The kernel program leaves the irregular averaging to the same host operations as the reference and computes each
  layer's dense part on a grid of ten points, each handling 5000 rows: two products of a row block with a whole
  transposed parameter, the bias row repeated down the block, the same two additions in the same order, and for the
  first layer the maximum with zero. Over the extended reals a product into a zero accumulator and the host's
  contraction are the same sum over the 128 input channels, an output row depends only on the same rows of the means
  and of the features, and the ten blocks tile the rows; so each grid's output array is the layer's function of the
  arrays it was entered with, and the two programs compute one function of the arguments. No law of the extended
  reals is used beyond that equality of sums, and in particular finiteness of the inputs plays no part.

  The three frame claims are the programs' runs with the results forgotten; the kernel's idealization rewrote no
  operation, so nothing is owed for it.
-/
import proofs.«119807_j39702677684337_1_alg».proof.Defs
import proofs.«119807_j39702677684337_1_alg».proof.Proof.Gen.Kernel
import proofs.«119807_j39702677684337_1_alg».proof.Proof.Gen.Kernel.Frame
import proofs.«119807_j39702677684337_1_alg».proof.Proof.Gen.KernelIdeal
import proofs.«119807_j39702677684337_1_alg».proof.Proof.Gen.KernelIdeal.Frame
import proofs.«119807_j39702677684337_1_alg».proof.Proof.Gen.ReferenceIdeal
import proofs.«119807_j39702677684337_1_alg».proof.Proof.Gen.Pre_finite_inputs
import proofs.«119807_j39702677684337_1_alg».proof.Proof.Gen.ReferenceIdeal.Run
import proofs.«119807_j39702677684337_1_alg».proof.Proof.Gen.ReferenceIdeal.Read
import proofs.«119807_j39702677684337_1_alg».proof.Proof.KernelRun
import proofs.«119807_j39702677684337_1_alg».proof.Proof.KernelValue
import proofs.«119807_j39702677684337_1_alg».proof.Proof.RefValue
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network's output function of the arguments
    in their result buffers, and their arguments unchanged. -/
theorem algebraic : Cert.algebraic_KernelIdeal_ReferenceIdeal := by
  intro m ρ m' ρ' _ hagree
  refine ⟨fun c => Cert.ReferenceIdeal.RefValue.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v58_eq, Cert.ReferenceIdeal.RefValue.stage_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
